-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S512x512 : Shape := ⟨2, ![512, 512]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S131072x512 .f32) (main_arg1 : FVec F S131072x512 .f32) (main_arg2 : FVec F S512x512 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S131072x512 .f32 := Host.absf main_arg1
  let main_cst_0 : FVec F S_ .f32 := constant S_ .f32 0x7F800000#32
  let main_v5 : FVec F S131072x512 .f32 := broadcastInDim S131072x512 ![] bcast_S_S131072x512 main_cst_0
  let main_v6 : IVec S131072x512 1 := cmpf .olt main_v4 main_v5
  let main_c_1 : IVec S_ 1 := constantI S_ 1 1#1
  let main_v7 : IVec S_ 1 := (fun x v => Host.reduce IntOp.andi x v reducesTo_S131072x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  main_v13
-- ==== Kernel.lean ====
abbrev S131072x512 : Shape := ⟨2, ![131072, 512]⟩
abbrev S512x512 : Shape := ⟨2, ![512, 512]⟩
abbrev S131072 : Shape := ⟨1, ![131072]⟩
abbrev S2048x512 : Shape := ⟨2, ![2048, 512]⟩
abbrev S2048 : Shape := ⟨1, ![2048]⟩

abbrev nBuf : Space → Nat
  | .hbm => 5
  | .vmem => 7
  | .smem => 0
  | _ => 0

abbrev bufTy : (tb : Table) → Fin (tcTables nBuf tb) → BufTy
  | .hbm, ⟨0, _⟩ => ⟨S131072x512, .f32⟩
  | .hbm, ⟨1, _⟩ => ⟨S131072x512, .f32⟩
  | .hbm, ⟨2, _⟩ => ⟨S512x512, .f32⟩
  | .hbm, ⟨3, _⟩ => ⟨S512x512, .bf16⟩
  | .hbm, ⟨4, _⟩ => ⟨S131072, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S512x512, .bf16⟩
  | .local _ .vmem, ⟨5, _⟩ => ⟨S2048, .f32⟩
  | .local _ .vmem, ⟨6, _⟩ => ⟨S2048, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S2048x512_S2048 : S2048x512.Reduces [1] S2048
  inb_S2048_S2048_0 : ∀ a, (![0] : Fin 1 → Nat) a + S2048.size a ≤ S2048.size a
  h_S2048 : 0 < S2048.numel
  dot_S2048x512_S512x512_S2048x512_1_1_0_0_n_n_wf : DotDims.WF S2048x512 S512x512 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S131072x512.size a
  hwx0_0 : ∀ i : grid0.Coords, EltTy.bits .f32 = 32 ∨ (Rect.block (s := S131072x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S131072x512.size a
  hwx0_1 : ∀ i : grid0.Coords, EltTy.bits .f32 = 32 ∨ (Rect.block (s := S131072x512) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048.size a ≤ S131072.size a
  hwx0_3 : ∀ i : grid0.Coords, EltTy.bits .f32 = 32 ∨ (Rect.block (s := S131072) S2048.size (cc0_transform_3 i) (hinb0_3 i)).WholeWords (EltTy.packing .f32)

variable [Facts₀]

def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x512 : Shape := ⟨2, ![131072, 512]⟩
abbrev S512x512 : Shape := ⟨2, ![512, 512]⟩
abbrev S_ : Shape := ⟨0, ![]⟩
abbrev S131072 : Shape := ⟨1, ![131072]⟩

abbrev nBuf : Space → Nat
  | .hbm => 8
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S131072x512, .f32⟩
  | .hbm, ⟨2, _⟩ => ⟨S512x512, .f32⟩
  | .hbm, ⟨3, _⟩ => ⟨S512x512, .f32⟩
  | .hbm, ⟨4, _⟩ => ⟨S131072x512, .f32⟩
  | .hbm, ⟨5, _⟩ => ⟨S131072x512, .f32⟩
  | .hbm, ⟨6, _⟩ => ⟨S_, .f32⟩
  | .hbm, ⟨7, _⟩ => ⟨S131072, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  transposes_S512x512_S512x512_1_0 : S512x512.Transposes [1, 0] S512x512
  reducesTo_S131072x512_S131072_d1 : S131072x512.ReducesTo [1] S131072
  h_S_ : 0 < S_.numel
  dot_S131072x512_S512x512_S131072x512_1_0_0_1_n_n_wf : DotDims.WF S131072x512 S512x512 S131072x512 [1] [0] [0] [1] [] []

variable [Facts₀]

def dot_S131072x512_S512x512_S131072x512_1_0_0_1_n_n : DotDims S131072x512 S512x512 S131072x512 where
  lhsContracting := [1]
  rhsContracting := [0]
  lhsNonContracting := [0]
  rhsNonContracting := [1]
  lhsBatch := []
  rhsBatch := []
  wf := dot_S131072x512_S512x512_S131072x512_1_0_0_1_n_n_wf

class Facts : Prop extends Facts₀ where

variable [Facts]
-- ==== Proof.ScoreSpec.lean ====
/-
  The bilinear score, as one function of the three argument arrays.

  For a batch row `b` of the feature array `f` and the summary array `s` (both 131072 × 512) and the square
  weight matrix `w` (512 × 512),

      score f s w b = ∑ o, f[b, o] · (∑ k, s[b, k] · w[o, k]),

  the feature row paired with the image of the summary row under `w` (contracted along `w`'s SECOND axis, that is
  `summary · wᵀ`). Everything is read on the extended reals; the sums are finite sums in the order of the index
  types, and no law beyond re-indexing is used anywhere, so the infinities need no care.
-/
import Idealize.ShloMosaic.PureOps.Ideal
import Idealize.ShloMosaic.Lib.ValueIdx

noncomputable section

open scoped BigOperators

namespace Cert.Score

open Idealize.ShloMosaic Idealize.ShloMosaic.ValueIdx

/-- The score of batch row `b`: the inner sum is row `b` of `summary · wᵀ` at column `o`. -/
def scoreAt (f s : (⟨2, ![131072, 512]⟩ : Shape).Idx → EReal) (w : (⟨2, ![512, 512]⟩ : Shape).Idx → EReal)
    (b : Fin 131072) : EReal :=
  ∑ o : Fin 512, f (ix2 b o) * ∑ k : Fin 512, s (ix2 b k) * w (ix2 o k)

/-- The whole result array: entry `i` is the score of batch row `i 0`. -/
def score (f s : (⟨2, ![131072, 512]⟩ : Shape).Idx → EReal) (w : (⟨2, ![512, 512]⟩ : Shape).Idx → EReal) :
    (⟨1, ![131072]⟩ : Shape).Idx → EReal :=
  fun i => scoreAt f s w (i 0)

theorem score_ix1 (f s : (⟨2, ![131072, 512]⟩ : Shape).Idx → EReal) (w : (⟨2, ![512, 512]⟩ : Shape).Idx → EReal)
    (b : Fin 131072) : score f s w (ix1 b) = scoreAt f s w b := rfl

end Cert.Score

end
-- ==== Proof.BlockScore.lean ====
/-
  One grid point's arithmetic, read at a row of the block.

  The body takes a 2048 × 512 block `s` of the summary array, the whole 512 × 512 weight matrix `w` and the
  2048 × 512 block `f` of the feature array, multiplies `s` by `w` contracting BOTH second axes (so entry `(r, o)`
  of the product is `∑ k, s[r, k] · w[o, k]`, accumulated from zero), multiplies by `f` entry by entry and sums
  each row. On the extended reals a change of float format is the identity, the product into a zero accumulator
  is the plain sum, and the row reduction is the sum over the row's columns.
-/
import proofs.«145194_j7241314861144_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Block

open Cert.KernelIdeal Cert.KernelIdeal.Gen
open Idealize.ShloMosaic Idealize.ShloMosaic.ValueIdx

/-- The product's dimension numbers: both operands contract their second axis. -/
abbrev D := dot_S2048x512_S512x512_S2048x512_1_1_0_0_n_n

theorem lhs_row (i : S2048x512.Idx) (q : D.contr.Idx) : (D.lhsIdx i q 0).val = (i 0).val := by
  unfold DotDims.lhsIdx
  rw [dif_neg (show ¬(0 : Fin S2048x512.rank) ∈ D.lhsBatch by decide),
    dif_pos (show (0 : Fin S2048x512.rank) ∈ D.lhsNonContracting by decide)]
  rfl
theorem lhs_col (i : S2048x512.Idx) (q : D.contr.Idx) : (D.lhsIdx i q 1).val = (q ⟨0, by decide⟩).val :=
  D.lhsIdx_val_of_single rfl i q
theorem rhs_row (i : S2048x512.Idx) (q : D.contr.Idx) : (D.rhsIdx i q 0).val = (i 1).val := by
  unfold DotDims.rhsIdx
  rw [dif_neg (show ¬(0 : Fin S512x512.rank) ∈ D.rhsBatch by decide),
    dif_pos (show (0 : Fin S512x512.rank) ∈ D.rhsNonContracting by decide)]
  rfl
theorem rhs_col (i : S2048x512.Idx) (q : D.contr.Idx) : (D.rhsIdx i q 1).val = (q ⟨0, by decide⟩).val :=
  D.rhsIdx_val_of_single rfl i q

/-- The product into the zero accumulator at `(r, o)`: the sum over `k` of `s[r, k] · w[o, k]`. -/
theorem product_apply (s : FVec Ideal S2048x512 .bf16) (w : FVec Ideal S512x512 .bf16) (r : Fin 2048) (o : Fin 512) :
    FloatOps.matmul D none s w (constant S2048x512 .f32 0x00000000#32) (ix2 r o)
      = ∑ k : Fin 512, s (ix2 r k) * w (ix2 o k) := by
  rw [Ideal.matmul_constant_zero_apply, ← Equiv.sum_comp (contrEquiv1 D 512 rfl rfl).symm]
  refine Finset.sum_congr rfl fun k _ => ?_
  have hk := contrEquiv1_symm_val D 512 rfl rfl k
  have el : D.lhsIdx (ix2 r o) ((contrEquiv1 D 512 rfl rfl).symm k) = ix2 r k := funext fun a => Fin.ext (by
    match a with
    | ⟨0, _⟩ => exact lhs_row _ _
    | ⟨1, _⟩ => exact (lhs_col _ _).trans hk)
  have er : D.rhsIdx (ix2 r o) ((contrEquiv1 D 512 rfl rfl).symm k) = ix2 o k := funext fun a => Fin.ext (by
    match a with
    | ⟨0, _⟩ => exact rhs_row _ _
    | ⟨1, _⟩ => exact (rhs_col _ _).trans hk)
  rw [el, er]

/-- The body's stored value at row `r`: `∑ o, f[r, o] · ∑ k, s[r, k] · w[o, k]`. -/
theorem pay_apply (s : FVec Ideal S2048x512 .f32) (w : FVec Ideal S512x512 .bf16) (f : FVec Ideal S2048x512 .f32)
    (r : Fin 2048) :
    k0_pay1 (F := Ideal) s w f (ix1 r) = ∑ o : Fin 512, f (ix2 r o) * ∑ k : Fin 512, s (ix2 r k) * w (ix2 o k) := by
  unfold k0_pay1
  refine (Ideal.multiReduction_add_single _ 0x00000000#32 reduces_S2048x512_S2048 (.inl rfl) rfl (ix1 r)).trans ?_
  refine Finset.sum_congr rfl fun (o : Fin 512) _ => ?_
  have hl : reduces_S2048x512_S2048.lift (ix1 r) o = ix2 r o :=
    funext fun a => Fin.ext (by match a with | ⟨0, _⟩ => rfl | ⟨1, _⟩ => rfl)
  rw [hl]
  show f (ix2 r o) * FloatOps.matmul D none _ _ (constant S2048x512 .f32 0x00000000#32) (ix2 r o) = _
  refine congrArg (f (ix2 r o) * ·) ?_
  refine (product_apply _ _ r o).trans ?_
  refine Finset.sum_congr rfl fun k _ => ?_
  rw [shapeCast_self]
  rfl

end Cert.KernelIdeal.Block

end
-- ==== Proof.KernelScore.lean ====
/-
  The kernel's result array is the bilinear score of its arguments.

  The grid has 64 points. Point `t` works on rows `2048·t … 2048·t + 2047` of the feature and summary arrays
  (their blocks move with the point along the first axis and span the whole second axis), on the whole weight
  matrix (its block index is `(0, 0)` at every point; the matrix reaches the region through a change of float
  format, which is the identity on the extended reals), and writes rows `2048·t … 2048·t + 2047` of the result.
  So what point `t` writes back is block `t` of the score array, the 64 blocks cover the result array (row `i`
  lies in block `i / 2048`), and the array after the run is the score of the argument arrays.
-/
import proofs.«145194_j7241314861144_2_alg».proof.Proof.Gen.KernelIdeal.Value
import proofs.«145194_j7241314861144_2_alg».proof.Proof.ScoreSpec
import proofs.«145194_j7241314861144_2_alg».proof.Proof.BlockScore
import Idealize.ShloMosaic.Lib.StableHlo.Run

noncomputable section

open scoped BigOperators

namespace Cert.KernelIdeal.Whole

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zeros1 : (![0] : Fin 1 → Nat) = fun _ => 0 := funext fun a => by fin_cases a <;> rfl
theorem zeros2 : (![0, 0] : Fin 2 → Nat) = fun _ => 0 := funext fun a => by fin_cases a <;> rfl

/-- The printed index maps over the grid: the feature, summary and result blocks are at block row `t`, the weight
    block at `(0, 0)`. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = t.val :=
  (by decide +kernel : ∀ t : Fin grid0.N, _)

/-- The score at a row of a block: if `f` and `s` are rows `2048·t …` of `F` and `S` and `w` is `W`, then the
    body's stored value at block row `y` is the score of `F`, `S`, `W` at array row `2048·t + y`. -/
theorem block_score (F S : FVec Ideal S131072x512 .f32) (W : FVec Ideal S512x512 .f32)
    (f s : FVec Ideal S2048x512 .f32) (w : FVec Ideal S512x512 .bf16) (t : Nat)
    (hf : ∀ (y : S2048x512.Idx) (i : S131072x512.Idx), (i 0).val = t * 2048 + (y 0).val → (i 1).val = (y 1).val → f y = F i)
    (hs : ∀ (y : S2048x512.Idx) (i : S131072x512.Idx), (i 0).val = t * 2048 + (y 0).val → (i 1).val = (y 1).val → s y = S i)
    (hw : ∀ y : S512x512.Idx, w y = W y)
    (y : S2048.Idx) (i : S131072.Idx) (hi : (i 0).val = t * 2048 + (y 0).val) :
    k0_pay1 (F := Ideal) s w f y = Cert.Score.score F S W i := by
  obtain ⟨r, rfl⟩ : ∃ r : Fin 2048, y = ix1 r := ⟨y 0, eq_ix1 y⟩
  obtain ⟨b, rfl⟩ : ∃ b : Fin 131072, i = ix1 b := ⟨i 0, eq_ix1 i⟩
  have hb : b.val = t * 2048 + r.val := hi
  rw [Block.pay_apply, Cert.Score.score_ix1]
  unfold Cert.Score.scoreAt
  refine Finset.sum_congr rfl fun o _ => ?_
  rw [hf (ix2 r o) (ix2 b o) hb rfl]
  refine congrArg (F (ix2 b o) * ·) (Finset.sum_congr rfl fun k _ => ?_)
  rw [hs (ix2 r k) (ix2 b k) hb rfl, hw]

/-- The feature block at point `t` is rows `2048·t …` of the feature argument. -/
theorem features_block (c : Dev nD) (t : Fin cfg0.N) (y : S2048x512.Idx) (i : S131072x512.Idx)
    (h0 : (i 0).val = t.val * 2048 + (y 0).val) (h1 : (i 1).val = (y 1).val) :
    (iblk m c 0 t : Vec Ideal S2048x512 .f32) y = (m ((c : Thread nD τ).loc main_arg0) : S131072x512.Idx → EReal) i := by
  obtain ⟨e00, e01, -⟩ := block_indices t
  unfold iblk
  rw [View.read_apply]
  show V m c main_arg0 _ = m (c.tc.loc main_arg0) _
  rw [V_main_arg0]
  refine congrArg _ (funext fun a => Fin.ext ?_)
  match a with
  | ⟨0, _⟩ => show win0_0.index t 0 * 2048 + 1 * (y 0).val = (i 0).val; rw [e00, h0]; omega
  | ⟨1, _⟩ => show win0_0.index t 1 * 512 + 1 * (y 1).val = (i 1).val; rw [e01, h1]; omega

/-- The summary block at point `t` is rows `2048·t …` of the summary argument. -/
theorem summary_block (c : Dev nD) (t : Fin cfg0.N) (y : S2048x512.Idx) (i : S131072x512.Idx)
    (h0 : (i 0).val = t.val * 2048 + (y 0).val) (h1 : (i 1).val = (y 1).val) :
    (iblk m c 1 t : Vec Ideal S2048x512 .f32) y = (m ((c : Thread nD τ).loc main_arg1) : S131072x512.Idx → EReal) i := by
  obtain ⟨-, -, e10, e11, -⟩ := block_indices t
  unfold iblk
  rw [View.read_apply]
  show V m c main_arg1 _ = m (c.tc.loc main_arg1) _
  rw [V_main_arg1]
  refine congrArg _ (funext fun a => Fin.ext ?_)
  match a with
  | ⟨0, _⟩ => show win0_1.index t 0 * 2048 + 1 * (y 0).val = (i 0).val; rw [e10, h0]; omega
  | ⟨1, _⟩ => show win0_1.index t 1 * 512 + 1 * (y 1).val = (i 1).val; rw [e11, h1]; omega

/-- The matrix the region finds in the third window's array is the weight argument: the one host operation before
    the region changes its float format, the identity on the extended reals. -/
theorem weight_entry (c : Dev nD) :
    (V m c main_v0 : S512x512.Idx → EReal) = (m ((c : Thread nD τ).loc main_arg2) : S512x512.Idx → EReal) := by
  dsimp only [Gen.V, Gen.hostOps0]
  after_results
  rfl

/-- The weight block at every point is the whole weight argument. -/
theorem weight_block (c : Dev nD) (t : Fin cfg0.N) (y : S512x512.Idx) :
    (iblk m c 2 t : Vec Ideal S512x512 .bf16) y = (m ((c : Thread nD τ).loc main_arg2) : S512x512.Idx → EReal) y := by
  obtain ⟨-, -, -, -, e20, e21, -⟩ := block_indices t
  unfold iblk
  rw [View.read_apply]
  show (V m c main_v0 : S512x512.Idx → EReal) _ = _
  rw [weight_entry]
  refine congrArg _ (funext fun a => Fin.ext ?_)
  match a with
  | ⟨0, _⟩ => show win0_2.index t 0 * 512 + 1 * (y 0).val = (y 0).val; rw [e20]; omega
  | ⟨1, _⟩ => show win0_2.index t 1 * 512 + 1 * (y 1).val = (y 1).val; rw [e21]; omega

/-- The score of the argument arrays of core `c`. -/
abbrev result (c : Dev nD) : S131072.Idx → EReal :=
  Cert.Score.score (m ((c : Thread nD τ).loc main_arg0)) (m ((c : Thread nD τ).loc main_arg1)) (m ((c : Thread nD τ).loc main_arg2))

/-- What point `t` writes back is block `t` of the score array. -/
theorem flushed_eq (c : Dev nD) (t : Fin cfg0.N) :
    (dats m 0 c).flushed 3 t = ((cfg0.win 3).blk t).view.read (Elt Ideal) (result m c) := by
  rw [flushed3]
  unfold out0_3
  rw [View.canon_unit_zero zeros1]
  simp only [View.ld_unit_zero (S := S2048x512) zeros2, View.ld_unit_zero (S := S512x512) zeros2]
  obtain ⟨-, -, -, -, -, -, e3⟩ := block_indices t
  funext j
  show k0_pay1 (F := Ideal) (iblk m c 1 t) (iblk m c 2 t) (iblk m c 0 t) j = result m c (((cfg0.win 3).blk t).view.emb j)
  refine block_score _ _ _ _ _ _ t.val (features_block m c t) (summary_block m c t) (weight_block m c t) j _ ?_
  show win0_3.index t 0 * 2048 + 1 * (j 0).val = t.val * 2048 + (j 0).val
  rw [e3]; omega

/-- An index of the result array is in point `t`'s block iff its row is in the block's range. -/
theorem mem_blk (t : Fin cfg0.N) (i : S131072.Idx) :
    i ∈ ((cfg0.win 3).blk t).view.set ↔ ∀ a : Fin 1, win0_3.index t a * S2048.size a ≤ (i a).val ∧ (i a).val < win0_3.index t a * S2048.size a + S2048.size a := by
  show i ∈ ((View.whole main_v1).slice (win0_3.rect t)).set ↔ _
  rw [View.set_slice_whole, Rect.mem_set_unit]
  exact Iff.rfl

/-- Row `i` of the result array lies in the block of point `i / 2048`, and every point writes back. -/
theorem cover (i : S131072.Idx) : ∃ t : Fin cfg0.N, (cfg0.win 3).flush t = true ∧ i ∈ ((cfg0.win 3).blk t).view.set := by
  have hi : (i 0).val < 131072 := (i 0).isLt
  have hN : cfg0.N = 64 := N_0
  refine ⟨⟨(i 0).val / 2048, by rw [hN]; omega⟩, flush0_3 _, ?_⟩
  rw [mem_blk]
  obtain ⟨-, -, -, -, -, -, e3⟩ := block_indices ⟨(i 0).val / 2048, by rw [hN]; omega⟩
  intro a
  match a with
  | ⟨0, _⟩ =>
    show win0_3.index _ 0 * 2048 ≤ (i 0).val ∧ (i 0).val < win0_3.index _ 0 * 2048 + 2048
    rw [e3]
    show (i 0).val / 2048 * 2048 ≤ (i 0).val ∧ (i 0).val < (i 0).val / 2048 * 2048 + 2048
    omega

/-- The result array after the run is the score of the argument arrays. -/
theorem final (c : Dev nD) : (dats m 0 c).arrAt 3 cfg0.N = result m c :=
  (dats m 0 c).arrAt_eq_of_cover 3 (result m c) (fun t _ => flushed_eq m c t) cover

/-- The run, read: the result array at the score of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Whole

end
-- ==== Proof.RefScore.lean ====
/-
  The reference computes the bilinear score.

  The reference transposes the weight matrix, contracts the summary array's second axis with the transposed
  matrix's first, multiplies by the feature array entry by entry and sums each row from the initial value zero.
  Read at batch row `b`: entry `(k, o)` of the transposed matrix is `w[o, k]`, so the contraction at `(b, o)` is
  `∑ k, s[b, k] · w[o, k]`, and the row sum is `0 + ∑ o, f[b, o] · (that)`: the score.
-/
import proofs.«145194_j7241314861144_2_alg».proof.Proof.Gen.ReferenceIdeal.Read
import proofs.«145194_j7241314861144_2_alg».proof.Proof.ScoreSpec

noncomputable section

open scoped BigOperators

namespace Cert.ReferenceIdeal.RefValue

open Cert.ReferenceIdeal Cert.ReferenceIdeal.Gen Cert.ReferenceIdeal.Read
open Idealize.ShloMosaic Idealize.ShloMosaic.ValueIdx

/-- Column `o` of batch row `b`, as the row sum's index map spells it. -/
theorem row_idx (b : Fin 131072) (o : Fin 512) : idx_main_v3 (ix1 b) o = ix2 b o :=
  funext fun a => by match a with | ⟨0, _⟩ => rfl | ⟨1, _⟩ => rfl

/-- The contraction's left operand index at `(b, o)` and `k` is `(b, k)`. -/
theorem lhs_idx (b : Fin 131072) (o k : Fin 512) : lidx_main_v1 (ix2 b o) k = ix2 b k :=
  funext fun a => by match a with | ⟨0, _⟩ => rfl | ⟨1, _⟩ => rfl

/-- The contraction's right operand index at `(b, o)` and `k` is `(k, o)` of the transposed matrix, which is
    `(o, k)` of the weight matrix. -/
theorem rhs_idx (b : Fin 131072) (o k : Fin 512) : idx_main_v0 (ridx_main_v1 (ix2 b o) k) = ix2 o k :=
  funext fun a => by match a with | ⟨0, _⟩ => rfl | ⟨1, _⟩ => rfl

/-- The reference's result, as a function of its three arguments, is the score. -/
theorem ref_score (x0 x1 : FVec Ideal S131072x512 .f32) (x2 : FVec Ideal S512x512 .f32) :
    val_main_v3 (F := Ideal) x0 x1 x2 = Cert.Score.score x0 x1 x2 := by
  funext i
  obtain ⟨b, rfl⟩ : ∃ b : Fin 131072, i = ix1 b := ⟨i 0, eq_ix1 i⟩
  rw [val_main_v3_apply, Cert.Score.score_ix1]
  unfold Cert.Score.scoreAt
  simp only [row_idx, val_main_v2_apply, val_main_v1_apply, val_main_v0_apply, lhs_idx, rhs_idx, val_main_cst_apply]
  show Ideal.ofBits .f32 0x00000000#32 + _ = _
  rw [Ideal.ofBits_zero_f32, zero_add]
  rfl

end Cert.ReferenceIdeal.RefValue

end
-- ==== Proof.lean ====
/-
  The certificate's proof: the kernel and its reference both compute the bilinear score

      out[b] = ∑ o, features[b, o] · (∑ k, summary[b, k] · weight[o, k])

  on the extended reals. The kernel walks the batch axis in 64 blocks of 2048 rows; at each block it multiplies the
  summary rows by the weight matrix contracting both second axes, multiplies by the feature rows and sums each row.
  The reference transposes the weight matrix, contracts the summary array with it, multiplies by the feature array
  and sums each row from zero. Both are the same finite sums in the same order, index by index, so no law of the
  extended reals beyond re-indexing is needed and the precondition (finite inputs) is never opened.

  The three frames are the generated ones (the reference's is its generated run with the result dropped); the
  idealization rewrote nothing, so it is preserved trivially; the algebraic claim sets the kernel's run
  (Proof/KernelScore.lean) beside the reference's run, whose composed term is the score (Proof/RefScore.lean).
-/
import proofs.«145194_j7241314861144_2_alg».proof.Defs
import proofs.«145194_j7241314861144_2_alg».proof.Proof.Gen.Kernel
import proofs.«145194_j7241314861144_2_alg».proof.Proof.Gen.Kernel.Skeleton
import proofs.«145194_j7241314861144_2_alg».proof.Proof.Gen.Kernel.Launch
import proofs.«145194_j7241314861144_2_alg».proof.Proof.Gen.Kernel.Points
import proofs.«145194_j7241314861144_2_alg».proof.Proof.Gen.Kernel.Frame
import proofs.«145194_j7241314861144_2_alg».proof.Proof.Gen.KernelIdeal
import proofs.«145194_j7241314861144_2_alg».proof.Proof.Gen.KernelIdeal.Skeleton
import proofs.«145194_j7241314861144_2_alg».proof.Proof.Gen.KernelIdeal.Launch
import proofs.«145194_j7241314861144_2_alg».proof.Proof.Gen.KernelIdeal.Points
import proofs.«145194_j7241314861144_2_alg».proof.Proof.Gen.KernelIdeal.Frame
import proofs.«145194_j7241314861144_2_alg».proof.Proof.Gen.ReferenceIdeal
import proofs.«145194_j7241314861144_2_alg».proof.Proof.Gen.Pre_finite_inputs
import proofs.«145194_j7241314861144_2_alg».proof.Proof.Gen.KernelIdeal.Value
import proofs.«145194_j7241314861144_2_alg».proof.Proof.Gen.ReferenceIdeal.Run
import proofs.«145194_j7241314861144_2_alg».proof.Proof.Gen.ReferenceIdeal.Read
import proofs.«145194_j7241314861144_2_alg».proof.Proof.KernelScore
import proofs.«145194_j7241314861144_2_alg».proof.Proof.RefScore
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, the kernel's result array ends at the score of its arguments and the
    reference's at its composed term of the same arguments, which is the score. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.ref_score,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
